-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8192x4096 : Shape := ⟨2, ![8192, 4096]⟩
abbrev S32768x1024 : Shape := ⟨2, ![32768, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_v13 : IVec S_ 1) (main_v16 : IVec S32768x1024 1) : IVec S_ 1 :=
  let main_c_5 : IVec S_ 1 := constantI S_ 1 1#1
  let main_v17 : IVec S_ 1 := (fun x v => Host.reduce IntOp.andi x v reducesTo_S32768x1024_S_d0_1 h_S_) main_v16 main_c_5
  let main_v18 : IVec S_ 1 := andi main_v13 main_v17
  main_v18

def fn {F : FTy → Type} [FloatOps F] (main_arg0 : FVec F S16384x1024 .f32) (main_arg1 : FVec F S8192x4096 .f32) (main_arg2 : FVec F S8192x4096 .f32) (main_arg3 : FVec F S32768x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S32768x1024 .f32 := Host.absf main_arg3
  let main_cst_4 : FVec F S_ .f32 := constant S_ .f32 0x7F800000#32
  let main_v15 : FVec F S32768x1024 .f32 := broadcastInDim S32768x1024 ![] bcast_S_S32768x1024 main_cst_4
  let main_v16 : IVec S32768x1024 1 := cmpf .olt main_v14 main_v15
  fn_part1 (F := F) main_v13 main_v16
-- ==== Kernel.lean ====
abbrev S16384x1024 : Shape := ⟨2, ![16384, 1024]⟩
abbrev S8192x4096 : Shape := ⟨2, ![8192, 4096]⟩
abbrev S32768x1024 : Shape := ⟨2, ![32768, 1024]⟩
abbrev S256x1024 : Shape := ⟨2, ![256, 1024]⟩
abbrev S1024x4096 : Shape := ⟨2, ![1024, 4096]⟩
abbrev S4096x1024 : Shape := ⟨2, ![4096, 1024]⟩
abbrev S_ : Shape := ⟨0, ![]⟩
abbrev S256x4096 : Shape := ⟨2, ![256, 4096]⟩

abbrev nBuf : Space → Nat
  | .hbm => 9
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S8192x4096, .f32⟩
  | .hbm, ⟨2, _⟩ => ⟨S8192x4096, .f32⟩
  | .hbm, ⟨3, _⟩ => ⟨S32768x1024, .f32⟩
  | .hbm, ⟨4, _⟩ => ⟨S16384x1024, .bf16⟩
  | .hbm, ⟨5, _⟩ => ⟨S8192x4096, .bf16⟩
  | .hbm, ⟨6, _⟩ => ⟨S8192x4096, .bf16⟩
  | .hbm, ⟨7, _⟩ => ⟨S32768x1024, .bf16⟩
  | .hbm, ⟨8, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S1024x4096, .bf16⟩
  | .local _ .vmem, ⟨6, _⟩ => ⟨S4096x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v16 : BitVec 32 := Scalar.muli arg0 c1024_i32
  v16
def k0_mult2 (i : grid0.Coords) : BitVec 32 :=
  let arg0 : BitVec 32 := BitVec.ofNat 32 (i 0).val
  let c4096_i32 : BitVec 32 := 4096#32
  let v18 : BitVec 32 := Scalar.muli arg0 c4096_i32
  v18
def k0_off1 (i : grid0.Coords) : Fin 2 → Nat :=
  let arg0 : BitVec 32 := BitVec.ofNat 32 (i 0).val
  let c1024_i32 : BitVec 32 := 1024#32
  let v16 : BitVec 32 := Scalar.muli arg0 c1024_i32
  let v17 : BitVec 32 := v16
  let c0_i32_12 : BitVec 32 := 0#32
  ![v17.toNat, 0]
def k0_off2 (i : grid0.Coords) : Fin 2 → Nat :=
  let arg0 : BitVec 32 := BitVec.ofNat 32 (i 0).val
  let c4096_i32 : BitVec 32 := 4096#32
  let v18 : BitVec 32 := Scalar.muli arg0 c4096_i32
  let v19 : BitVec 32 := v18
  let c0_i32_14 : BitVec 32 := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  inb_S4096x1024_S4096x1024_0_0 : ∀ a, (![0, 0] : Fin 2 → Nat) a + S4096x1024.size a ≤ S4096x1024.size a
  h_S4096x1024 : 0 < S4096x1024.numel
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hcc0_scratch3 : 4 + S_.numel ≤ 7
  hcc0_scratch4 : 5 + S_.numel ≤ 7
  hcc0_scratch5 : 6 + S_.numel ≤ 7
  hrank0 : 0 < grid0.rank
  k0_mult1_dvd : ∀ i : grid0.Coords, ∀ (k0_h1 : k0_cond1 i = 1#1), 1024 ∣ (k0_mult1 i).toNat
  k0_mult2_dvd : ∀ i : grid0.Coords, ∀ (k0_h1 : k0_cond1 i = 1#1), 4096 ∣ (k0_mult2 i).toNat
  k0_off1_inb : ∀ i : grid0.Coords, ∀ (k0_h1 : k0_cond1 i = 1#1), ∀ a, (k0_off1 i) a + S1024x4096.size a ≤ S8192x4096.size a
  k0_off1_wordsbf16 : ∀ i : grid0.Coords, ∀ (k0_h1 : k0_cond1 i = 1#1), (Rect.unit (s := S8192x4096) (k0_off1 i) S1024x4096.size (k0_off1_inb i k0_h1)).WholeWords (EltTy.packing .bf16)
  k0_off2_inb : ∀ i : grid0.Coords, ∀ (k0_h1 : k0_cond1 i = 1#1), ∀ a, (k0_off2 i) a + S4096x1024.size a ≤ S32768x1024.size a
  k0_off2_wordsbf16 : ∀ i : grid0.Coords, ∀ (k0_h1 : k0_cond1 i = 1#1), (Rect.unit (s := S32768x1024) (k0_off2 i) S4096x1024.size (k0_off2_inb i k0_h1)).WholeWords (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_4 i = cc0_transform_4 i'
  hinb0_1 : ∀ (i : grid0.Coords) a, (cc0_transform_4 i a + 1) * S256x1024.size a ≤ S16384x1024.size a
  hwx0_1 : ∀ i : grid0.Coords, EltTy.bits .f32 = 32 ∨ (Rect.block (s := S16384x1024) S256x1024.size (cc0_transform_4 i) (hinb0_1 i)).WholeWords (EltTy.packing .f32)

variable [Facts₀]

abbrev cc0_scratch3 : DmaSems sig S_ := SemArray.consecutive 4 S_ hcc0_scratch3
abbrev cc0_scratch4 : DmaSems sig S_ := SemArray.consecutive 5 S_ hcc0_scratch4
abbrev cc0_scratch5 : DmaSems sig S_ := SemArray.consecutive 6 S_ hcc0_scratch5
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_4 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8192x4096 : Shape := ⟨2, ![8192, 4096]⟩
abbrev S32768x1024 : Shape := ⟨2, ![32768, 1024]⟩
abbrev S8x1024x4096 : Shape := ⟨3, ![8, 1024, 4096]⟩
abbrev S8x4096x1024 : Shape := ⟨3, ![8, 4096, 1024]⟩
abbrev S8x2048x1024 : Shape := ⟨3, ![8, 2048, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8192x4096, .f32⟩
  | .hbm, ⟨2, _⟩ => ⟨S8192x4096, .f32⟩
  | .hbm, ⟨3, _⟩ => ⟨S32768x1024, .f32⟩
  | .hbm, ⟨4, _⟩ => ⟨S8x1024x4096, .f32⟩
  | .hbm, ⟨5, _⟩ => ⟨S8x1024x4096, .f32⟩
  | .hbm, ⟨6, _⟩ => ⟨S8x4096x1024, .f32⟩
  | .hbm, ⟨7, _⟩ => ⟨S8x2048x1024, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S8x2048x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S8192x4096_S8x1024x4096 : S8192x4096.ShapeCasts S8x1024x4096
  shapeCasts_S32768x1024_S8x4096x1024 : S32768x1024.ShapeCasts S8x4096x1024
  shapeCasts_S16384x1024_S8x2048x1024 : S16384x1024.ShapeCasts S8x2048x1024
  bcast_S_S8x2048x4096 : S_.BroadcastsInDim S8x2048x4096 (![] : Fin 0 → Fin S8x2048x4096.rank)
  shapeCasts_S8x2048x1024_S16384x1024 : S8x2048x1024.ShapeCasts S16384x1024
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The mathematics both programs compute, as ONE function of the four argument arrays.

  Tokens are the 16384 rows of `x` (1024 features each), grouped 2048 consecutive rows to an expert, eight experts.
  Expert `e` owns rows `e·1024 … e·1024 + 1023` of the two up-projection matrices (4096 columns each) and rows
  `e·4096 … e·4096 + 4095` of the down-projection matrix (1024 columns). For a token row `r` of expert `e = r / 2048`:

      up₁ r f = ∑ₖ x[r, k] · w₁[e·1024 + k, f]          (k < 1024, f < 4096)
      up₂ r f = ∑ₖ x[r, k] · w₂[e·1024 + k, f]
      act r f = (up₁ r f · σ(up₁ r f)) · up₂ r f         σ t = 1 / (1 + e⁻ᵗ), with σ(−∞) = 0 and σ(+∞) = 1
      out[r, d] = ∑_f act r f · w₃[e·4096 + f, d]        (d < 1024)

  over the extended reals. Nothing here needs the entries to be finite: the two programs differ only in how the sums
  are arranged (by row block against by expert batch), and sums of extended reals commute and re-associate freely.
-/
import Idealize.ShloMosaic.PureOps.Ideal
import Idealize.ShloMosaic.PureOps.Ideal.Laws
import Idealize.ShloMosaic.Lib.ValueIdx

noncomputable section

namespace Cert.Swiglu

open Idealize.ShloMosaic Idealize.ShloMosaic.ValueIdx
open scoped BigOperators

/-- The token array's shape, the up-projections' and the down-projection's. -/
abbrev Tok : Shape := ⟨2, ![16384, 1024]⟩
abbrev Up : Shape := ⟨2, ![8192, 4096]⟩
abbrev Down : Shape := ⟨2, ![32768, 1024]⟩

/-- The expert owning token row `r`: rows come 2048 to an expert. -/
def expertOf (r : Fin 16384) : Fin 8 := ⟨r.val / 2048, by have := r.isLt; omega⟩

/-- Row `k` of expert `e`'s slab of an up-projection matrix. -/
def upRow (e : Fin 8) (k : Fin 1024) : Fin 8192 := ⟨e.val * 1024 + k.val, by have := e.isLt; have := k.isLt; omega⟩

/-- Row `f` of expert `e`'s slab of the down-projection matrix. -/
def downRow (e : Fin 8) (f : Fin 4096) : Fin 32768 := ⟨e.val * 4096 + f.val, by have := e.isLt; have := f.isLt; omega⟩

/-- Expert `e`'s slab of an up-projection matrix, as a 1024 × 4096 array of its own. -/
def rowsUp {α : Type} (w : Up.Idx → α) (e : Fin 8) : (⟨2, ![1024, 4096]⟩ : Shape).Idx → α :=
  fun y => w (ix2 (upRow e (y 0)) (y 1))

/-- Expert `e`'s slab of the down-projection matrix, as a 4096 × 1024 array of its own. -/
def rowsDown {α : Type} (w : Down.Idx → α) (e : Fin 8) : (⟨2, ![4096, 1024]⟩ : Shape).Idx → α :=
  fun y => w (ix2 (downRow e (y 0)) (y 1))

/-- An up-projection of token row `r` through its expert's slab of `w`, at hidden column `f`. -/
def up (x : Tok.Idx → EReal) (w : Up.Idx → EReal) (r : Fin 16384) (f : Fin 4096) : EReal :=
  ∑ k : Fin 1024, x (ix2 r k) * w (ix2 (upRow (expertOf r) k) f)

/-- The gated activation: the first projection times its logistic, times the second projection. -/
def act (x : Tok.Idx → EReal) (w₁ w₂ : Up.Idx → EReal) (r : Fin 16384) (f : Fin 4096) : EReal :=
  (up x w₁ r f * Ideal.logistic (up x w₁ r f)) * up x w₂ r f

/-- The whole layer: the activations of a token row through its expert's slab of the down-projection. -/
def layer (x : Tok.Idx → EReal) (w₁ w₂ : Up.Idx → EReal) (w₃ : Down.Idx → EReal) : Tok.Idx → EReal :=
  fun i => ∑ f : Fin 4096, act x w₁ w₂ (i 0) f * w₃ (ix2 (downRow (expertOf (i 0)) f) (i 1))

/-- The float pattern `0x3F800000` is the real number one. -/
theorem ofBits_one_f32 : Ideal.ofBits .f32 0x3F800000#32 = 1 := by
  simp [Ideal.ofBits, Ideal.ieee, -EReal.coe_mul]; norm_num

/-- The logistic function spelled with a quotient and an exponential, as a host program spells it, is the logistic. -/
theorem logistic_spelled (t : EReal) : Ideal.div 1 (1 + Ideal.exp (-t)) = Ideal.logistic t := rfl

end Cert.Swiglu

end
-- ==== Proof.RefIsSpec.lean ====
/-
  The reference program computes the layer of Spec.lean.

  Its result at `[r, d]` is read through the final reshape at `(r / 2048, r % 2048, d)` of the batched product; the
  batched products read the reshaped operands at `(e, g, k)`, `(e, k, f)` and `(e, f, d)`, which the reshapes read at
  rows `e·2048 + g = r`, `e·1024 + k` and `e·4096 + f` of the flat arrays. So every sum of the reference is, term by
  term, the corresponding sum of the specification; the activation is the same product, the logistic spelled
  `1 / (1 + e⁻ᵗ)` with the float pattern of one.
-/
import proofs.«112839_j84533546320328_1_alg».proof.Proof.Gen.ReferenceIdeal.Read
import proofs.«112839_j84533546320328_1_alg».proof.Proof.Spec

noncomputable section

namespace Cert.ReferenceIdeal.RefValue

open Cert.ReferenceIdeal Cert.ReferenceIdeal.Read Idealize.ShloMosaic Idealize.ShloMosaic.ValueIdx Cert.Swiglu
open scoped BigOperators

variable (x0 : (⟨S16384x1024, .f32⟩ : BufTy).Contents (Elt Ideal))
  (x1 x2 : (⟨S8192x4096, .f32⟩ : BufTy).Contents (Elt Ideal))
  (x3 : (⟨S32768x1024, .f32⟩ : BufTy).Contents (Elt Ideal))

/-- The token row the reference's batched index `(e, g, ·)` of output position `i` names is row `i 0` itself. -/
theorem tok_idx (i : S16384x1024.Idx) (f : Fin 4096) (k : Fin 1024) :
    idx_main_v3 (lidx_main_v4 (lidx_main_v8 (idx_main_v9 i) f) k) = ix2 (i 0) k := by
  have h0 : (i 0).val < 16384 := (i 0).isLt
  have h1 : (i 1).val < 1024 := (i 1).isLt
  have hk : k.val < 1024 := k.isLt
  funext a
  apply Fin.ext
  match a with
  | ⟨0, _⟩ =>
    show ((((i 0).val * 1024 + (i 1).val) / 2097152 * 2048 + ((i 0).val * 1024 + (i 1).val) / 1024 % 2048) * 1024 + k.val) / 1024 = (i 0).val
    omega
  | ⟨1, _⟩ =>
    show ((((i 0).val * 1024 + (i 1).val) / 2097152 * 2048 + ((i 0).val * 1024 + (i 1).val) / 1024 % 2048) * 1024 + k.val) % 1024 = k.val
    omega

/-- The up-projection entry the reference reads at `(e, k, f)` is row `e·1024 + k` of the flat matrix, `e` the row's expert. -/
theorem up_idx (i : S16384x1024.Idx) (f : Fin 4096) (k : Fin 1024) :
    idx_main_v0 (ridx_main_v4 (lidx_main_v8 (idx_main_v9 i) f) k) = ix2 (upRow (expertOf (i 0)) k) f := by
  have h0 : (i 0).val < 16384 := (i 0).isLt
  have h1 : (i 1).val < 1024 := (i 1).isLt
  have hk : k.val < 1024 := k.isLt
  have hf : f.val < 4096 := f.isLt
  funext a
  apply Fin.ext
  match a with
  | ⟨0, _⟩ =>
    show ((((i 0).val * 1024 + (i 1).val) / 2097152 * 1024 + k.val) * 4096 + f.val) / 4096 = (i 0).val / 2048 * 1024 + k.val
    omega
  | ⟨1, _⟩ =>
    show ((((i 0).val * 1024 + (i 1).val) / 2097152 * 1024 + k.val) * 4096 + f.val) % 4096 = f.val
    omega

/-- The down-projection entry the reference reads at `(e, f, d)` is row `e·4096 + f`, column `d`, of the flat matrix. -/
theorem down_idx (i : S16384x1024.Idx) (f : Fin 4096) :
    idx_main_v2 (ridx_main_v8 (idx_main_v9 i) f) = ix2 (downRow (expertOf (i 0)) f) (i 1) := by
  have h0 : (i 0).val < 16384 := (i 0).isLt
  have h1 : (i 1).val < 1024 := (i 1).isLt
  have hf : f.val < 4096 := f.isLt
  funext a
  apply Fin.ext
  match a with
  | ⟨0, _⟩ =>
    show ((((i 0).val * 1024 + (i 1).val) / 2097152 * 4096 + f.val) * 1024 + ((i 0).val * 1024 + (i 1).val) % 1024) / 1024 = (i 0).val / 2048 * 4096 + f.val
    omega
  | ⟨1, _⟩ =>
    show ((((i 0).val * 1024 + (i 1).val) / 2097152 * 4096 + f.val) * 1024 + ((i 0).val * 1024 + (i 1).val) % 1024) % 1024 = (i 1).val
    omega

/-- The reference's first batched product at output position `i`, hidden column `f`, is the first up-projection. -/
theorem first_product (i : S16384x1024.Idx) (f : Fin 4096) :
    val_main_v4 (F := Ideal) x0 x1 (lidx_main_v8 (idx_main_v9 i) f) = up x0 x1 (i 0) f := by
  rw [val_main_v4_apply]
  unfold up
  refine Finset.sum_congr rfl fun k _ => ?_
  rw [val_main_v3_apply, val_main_v0_apply]
  exact congrArg₂ (· * ·) (congrArg x0 (tok_idx i f k)) (congrArg x1 (up_idx i f k))

/-- The second batched product is the second up-projection: the same indices through the other matrix. -/
theorem second_product (i : S16384x1024.Idx) (f : Fin 4096) :
    val_main_v5 (F := Ideal) x0 x2 (lidx_main_v8 (idx_main_v9 i) f) = up x0 x2 (i 0) f := by
  rw [val_main_v5_apply]
  unfold up
  refine Finset.sum_congr rfl fun k _ => ?_
  rw [val_main_v3_apply, val_main_v1_apply]
  exact congrArg₂ (· * ·) (congrArg x0 (tok_idx i f k)) (congrArg x2 (up_idx i f k))

/-- THE REFERENCE IS THE LAYER: its last stage, index by index. -/
theorem reference_is_layer : val_main_v9 (F := Ideal) x0 x1 x2 x3 = layer x0 x1 x2 x3 := by
  funext i
  rw [val_main_v9_apply, val_main_v8_apply]
  unfold layer
  refine Finset.sum_congr rfl fun f _ => ?_
  rw [val_main_v7_apply, val_main_v6_apply, val_main_call0_v5_apply, val_main_call0_v4_apply,
    val_main_call0_cst_0_apply, val_main_call0_v3_apply, val_main_call0_v2_apply, val_main_call0_cst_apply,
    val_main_call0_v1_apply, val_main_call0_v0_apply, val_main_v2_apply, first_product, second_product, down_idx]
  simp only [Ideal.mulf_def, Ideal.addf_def, Ideal.hostDivf_def, Ideal.hostUnary_exp_def, Ideal.hostNegf_def,
    Ideal.negf_def, Ideal.ofBits_def, ofBits_one_f32]
  rfl

end Cert.ReferenceIdeal.RefValue

end
-- ==== Proof.Pieces.lean ====
/-
  What the kernel body leaves behind at one grid point, read as values.

  At a point that opens an expert's run of row blocks (the second grid coordinate is zero) the body first copies the
  expert's three weight slabs — 1024 rows of each up-projection matrix from row offset `1024·e`, 4096 rows of the
  down-projection matrix from row offset `4096·e` — into its three scratch buffers, whole, and waits for the copies;
  at every other point the scratch buffers hold what the point before left. Either way the body then loads the token
  block and the three scratch buffers whole and stores, over the whole output block, the one payload: the gated
  product of the token block with the three slabs. So a scratch buffer ends as the slab (first kind of point) or
  unchanged (second kind), and the output block ends as the payload of the token block and the slabs the scratch
  buffers then hold.
-/
import proofs.«112839_j84533546320328_1_alg».proof.Proof.Gen.KernelIdeal.Frame
import Idealize.ShloMosaic.Lib.Pipeline.Value
import Idealize.ShloMosaic.Lib.Tactic

set_option maxRecDepth 16384

noncomputable section

namespace Idealize.ShloMosaic.View

variable {Val : EltTy → Type} {S : Shape} {e : EltTy}

/-- One write through the whole rectangle leaves its payload. -/
theorem canon_whole [∀ e, Nonempty (Val e)] (w : S.Idx → Val e) :
    View.canon [(⟨Rect.whole S, w⟩ : Piece Val S e)] = w := by
  funext y
  have h := canon_cons_emb (Val := Val) (Rect.whole S) w [] y
  rw [Rect.emb_whole_apply] at h
  exact h

/-- A load through the whole-shape rectangle at zero offsets, after one write through the whole rectangle, reads
    that write's payload. -/
theorem readCov_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) :
    v.readCov [(⟨Rect.whole S, w⟩ : Piece Val S e)] (Rect.unit off S.size inb).toLoadRect = w := by
  rw [readCov_eq_canon_ld _ _ _ (fun y => ⟨_, List.mem_singleton_self _, by
    show y ∈ (Rect.whole S).set; rw [Rect.set_whole]; exact Finset.mem_univ y⟩), canon_whole, ld_unit_zero h]

end Idealize.ShloMosaic.View

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The slab of the first up-projection matrix the body copies at a point `i` that opens an expert's run: the 1024
    rows from the body's own row offset, read off the matrix's contents `fh`. -/
def slabUp1 (c : Dev nD) (i : grid0.Coords) (hc0 : cond0_0 i) (fh : HbBuf0 (F := F) c hbM0_0) : Vec F S1024x4096 .bf16 :=
  View.read (Elt F) ((Memref.whole main_v1).slice (Rect.unit (s := S8192x4096) (k0_off1 i) S1024x4096.size (Facts₀.k0_off1_inb i hc0)) (fun _ => rfl)).view fh

/-- The same rows of the second up-projection matrix. -/
def slabUp2 (c : Dev nD) (i : grid0.Coords) (hc0 : cond0_0 i) (fh : HbBuf0 (F := F) c hbM0_1) : Vec F S1024x4096 .bf16 :=
  View.read (Elt F) ((Memref.whole main_v2).slice (Rect.unit (s := S8192x4096) (k0_off1 i) S1024x4096.size (Facts₀.k0_off1_inb i hc0)) (fun _ => rfl)).view fh

/-- The 4096 rows of the down-projection matrix from the body's other row offset. -/
def slabDown (c : Dev nD) (i : grid0.Coords) (hc0 : cond0_0 i) (fh : HbBuf0 (F := F) c hbM0_2) : Vec F S4096x1024 .bf16 :=
  View.read (Elt F) ((Memref.whole main_v3).slice (Rect.unit (s := S32768x1024) (k0_off2 i) S4096x1024.size (Facts₀.k0_off2_inb i hc0)) (fun _ => rfl)).view fh

/-- At a point that opens a run, the first scratch buffer ends holding the first slab. -/
theorem scratch_A_0 (c : Dev nD) (i : grid0.Coords) (arg2 : Memref sig .tc .vmem S256x1024 .bf16) (harg2 : arg2.IsWhole) (arg6 : Memref sig .tc .vmem S256x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S4096x1024 .bf16) (harg9 : arg9.IsWhole) (hc0 : cond0_0 i)
    (x0 : Vec F S256x1024 .bf16) (fh0 : HbBuf0 (F := F) c hbM0_0) (fh1 : HbBuf0 (F := F) c hbM0_1) (fh2 : HbBuf0 (F := F) c hbM0_2) :
    sout0_A_0 c i arg2 harg2 arg6 harg6 arg7 harg7 arg8 harg8 arg9 harg9 hc0 x0 fh0 fh1 fh2 = slabUp1 c i hc0 fh0 := by
  unfold sout0_A_0
  rw [View.read_writes_eq_canon _ _ _ (scover0_A_0 c i arg2 harg2 arg6 harg6 arg7 harg7 arg8 harg8 arg9 harg9 hc0 x0 fh0 fh1 fh2)]
  unfold kernelRun0_A
  dsimp only
  sl_unfold_words
  exact View.canon_whole _

/-- … the second the second slab, -/
theorem scratch_A_1 (c : Dev nD) (i : grid0.Coords) (arg2 : Memref sig .tc .vmem S256x1024 .bf16) (harg2 : arg2.IsWhole) (arg6 : Memref sig .tc .vmem S256x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S4096x1024 .bf16) (harg9 : arg9.IsWhole) (hc0 : cond0_0 i)
    (x0 : Vec F S256x1024 .bf16) (fh0 : HbBuf0 (F := F) c hbM0_0) (fh1 : HbBuf0 (F := F) c hbM0_1) (fh2 : HbBuf0 (F := F) c hbM0_2) :
    sout0_A_1 c i arg2 harg2 arg6 harg6 arg7 harg7 arg8 harg8 arg9 harg9 hc0 x0 fh0 fh1 fh2 = slabUp2 c i hc0 fh1 := by
  unfold sout0_A_1
  rw [View.read_writes_eq_canon _ _ _ (scover0_A_1 c i arg2 harg2 arg6 harg6 arg7 harg7 arg8 harg8 arg9 harg9 hc0 x0 fh0 fh1 fh2)]
  unfold kernelRun0_A
  dsimp only
  sl_unfold_words
  exact View.canon_whole _

/-- … and the third the down-projection slab. -/
theorem scratch_A_2 (c : Dev nD) (i : grid0.Coords) (arg2 : Memref sig .tc .vmem S256x1024 .bf16) (harg2 : arg2.IsWhole) (arg6 : Memref sig .tc .vmem S256x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S4096x1024 .bf16) (harg9 : arg9.IsWhole) (hc0 : cond0_0 i)
    (x0 : Vec F S256x1024 .bf16) (fh0 : HbBuf0 (F := F) c hbM0_0) (fh1 : HbBuf0 (F := F) c hbM0_1) (fh2 : HbBuf0 (F := F) c hbM0_2) :
    sout0_A_2 c i arg2 harg2 arg6 harg6 arg7 harg7 arg8 harg8 arg9 harg9 hc0 x0 fh0 fh1 fh2 = slabDown c i hc0 fh2 := by
  unfold sout0_A_2
  rw [View.read_writes_eq_canon _ _ _ (scover0_A_2 c i arg2 harg2 arg6 harg6 arg7 harg7 arg8 harg8 arg9 harg9 hc0 x0 fh0 fh1 fh2)]
  unfold kernelRun0_A
  dsimp only
  sl_unfold_words
  exact View.canon_whole _

/-- At such a point the output block ends as the payload of the token block and the three slabs just copied:
    the body's loads of the scratch buffers read the copies back whole. -/
theorem out_A (c : Dev nD) (i : grid0.Coords) (arg2 : Memref sig .tc .vmem S256x1024 .bf16) (harg2 : arg2.IsWhole) (arg6 : Memref sig .tc .vmem S256x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S4096x1024 .bf16) (harg9 : arg9.IsWhole) (hc0 : cond0_0 i)
    (x0 : Vec F S256x1024 .bf16) (fh0 : HbBuf0 (F := F) c hbM0_0) (fh1 : HbBuf0 (F := F) c hbM0_1) (fh2 : HbBuf0 (F := F) c hbM0_2) :
    out0_A_1 c i arg2 harg2 arg6 harg6 arg7 harg7 arg8 harg8 arg9 harg9 hc0 x0 fh0 fh1 fh2 = k0_pay1 x0 (slabUp1 c i hc0 fh0) (slabUp2 c i hc0 fh1) (slabDown c i hc0 fh2) := by
  unfold out0_A_1
  rw [View.read_writes_eq_canon _ _ _ (cover0_A_1 c i arg2 harg2 arg6 harg6 arg7 harg7 arg8 harg8 arg9 harg9 hc0 x0 fh0 fh1 fh2)]
  unfold kernelRun0_A
  dsimp only
  sl_unfold_words
  rw [View.canon_unit_zero hz]
  simp only [View.readAt_eq_ld, harg2.read_unread, View.ld_unit_zero (S := S256x1024) hz,
    View.readCov_whole (S := S1024x4096) _ hz, View.readCov_whole (S := S4096x1024) _ hz]
  rfl

/-- At any other point the output block ends as the payload of the token block and what the scratch buffers held. -/
theorem out_B (c : Dev nD) (i : grid0.Coords) (arg2 : Memref sig .tc .vmem S256x1024 .bf16) (harg2 : arg2.IsWhole) (arg6 : Memref sig .tc .vmem S256x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S4096x1024 .bf16) (harg9 : arg9.IsWhole) (hc0 : ¬cond0_0 i)
    (x0 : Vec F S256x1024 .bf16) (xs0 : Vec F S1024x4096 .bf16) (xs1 : Vec F S1024x4096 .bf16) (xs2 : Vec F S4096x1024 .bf16) (fh0 : HbBuf0 (F := F) c hbM0_0) (fh1 : HbBuf0 (F := F) c hbM0_1) (fh2 : HbBuf0 (F := F) c hbM0_2) :
    out0_B_1 c i arg2 harg2 arg6 harg6 arg7 harg7 arg8 harg8 arg9 harg9 hc0 x0 xs0 xs1 xs2 fh0 fh1 fh2 = k0_pay1 x0 xs0 xs1 xs2 := by
  unfold out0_B_1
  rw [View.read_writes_eq_canon _ _ _ (cover0_B_1 c i arg2 harg2 arg6 harg6 arg7 harg7 arg8 harg8 arg9 harg9 hc0 x0 xs0 xs1 xs2 fh0 fh1 fh2)]
  unfold kernelRun0_B
  dsimp only
  rw [View.canon_unit_zero hz]
  simp only [View.readAt_eq_ld, harg2.read_unread, harg7.read_unread, harg8.read_unread, harg9.read_unread,
    View.ld_unit_zero (S := S256x1024) hz, View.ld_unit_zero (S := S1024x4096) hz, View.ld_unit_zero (S := S4096x1024) hz]

end Cert.KernelIdeal.Pieces

end
-- ==== Proof.Carried.lean ====
/-
  What the three scratch buffers and the output block hold after each grid point.

  The 64 grid points come in runs of eight: points `8e … 8e + 7` are expert `e`'s row blocks. The first point of a run
  copies the expert's slabs into the scratch buffers; the other seven leave them alone. So after point `n` the scratch
  buffers hold expert `n / 8`'s slabs — by induction on `n`: a point that opens a run writes them, a later point keeps
  what the point before held, and `(n − 1) / 8 = n / 8` inside a run — and the output block holds the payload of the
  point's token block with those slabs.
-/
import proofs.«112839_j84533546320328_1_alg».proof.Proof.Pieces
import proofs.«112839_j84533546320328_1_alg».proof.Proof.Spec
import Idealize.ShloMosaic.Lib.ValueIdx

set_option maxRecDepth 16384

noncomputable section

namespace Cert.KernelIdeal.Carried

open Cert.KernelIdeal Cert.KernelIdeal.Gen Cert.KernelIdeal.Pieces Cert.Swiglu
open Idealize.ShloMosaic Idealize.ShloMosaic.TcCoe Idealize.ShloMosaic.ValueIdx Idealize.SL.Sem

variable {F : FTy → Type} [FloatOps F]

/-! ## The copied slabs, entry by entry -/

/-- The slab of the first up-projection matrix copied at a point whose first grid coordinate is `e` is expert
    `e`'s rows: the copy starts at row `1024·e`. -/
theorem slabUp1_eq (c : Dev nD) (i : grid0.Coords) (hc0 : cond0_0 i) (fh : HbBuf0 (F := F) c hbM0_0) (e : Fin 8)
    (he : (i 0).val = e.val) : slabUp1 c i hc0 fh = rowsUp fh e := by
  funext y
  have hy : (y 0).val < 1024 := (y 0).isLt
  unfold slabUp1 rowsUp
  rw [View.read_apply]
  show fh _ = fh _
  congr 1
  funext a
  apply Fin.ext
  match a with
  | ⟨0, _⟩ =>
    show k0_off1 i 0 + 1 * (y 0).val = e.val * 1024 + (y 0).val
    rw [k0_off1_eq]
    show 1024 * (i 0).val + 1 * (y 0).val = _
    omega
  | ⟨1, _⟩ =>
    show k0_off1 i 1 + 1 * (y 1).val = (y 1).val
    rw [k0_off1_eq]
    show 0 + 1 * (y 1).val = _
    omega

/-- The same of the second up-projection matrix. -/
theorem slabUp2_eq (c : Dev nD) (i : grid0.Coords) (hc0 : cond0_0 i) (fh : HbBuf0 (F := F) c hbM0_1) (e : Fin 8)
    (he : (i 0).val = e.val) : slabUp2 c i hc0 fh = rowsUp fh e := by
  funext y
  have hy : (y 0).val < 1024 := (y 0).isLt
  unfold slabUp2 rowsUp
  rw [View.read_apply]
  show fh _ = fh _
  congr 1
  funext a
  apply Fin.ext
  match a with
  | ⟨0, _⟩ =>
    show k0_off1 i 0 + 1 * (y 0).val = e.val * 1024 + (y 0).val
    rw [k0_off1_eq]
    show 1024 * (i 0).val + 1 * (y 0).val = _
    omega
  | ⟨1, _⟩ =>
    show k0_off1 i 1 + 1 * (y 1).val = (y 1).val
    rw [k0_off1_eq]
    show 0 + 1 * (y 1).val = _
    omega

/-- The slab of the down-projection matrix copied there is expert `e`'s rows: the copy starts at row `4096·e`. -/
theorem slabDown_eq (c : Dev nD) (i : grid0.Coords) (hc0 : cond0_0 i) (fh : HbBuf0 (F := F) c hbM0_2) (e : Fin 8)
    (he : (i 0).val = e.val) : slabDown c i hc0 fh = rowsDown fh e := by
  funext y
  have hy : (y 0).val < 4096 := (y 0).isLt
  unfold slabDown rowsDown
  rw [View.read_apply]
  show fh _ = fh _
  congr 1
  funext a
  apply Fin.ext
  match a with
  | ⟨0, _⟩ =>
    show k0_off2 i 0 + 1 * (y 0).val = e.val * 4096 + (y 0).val
    rw [k0_off2_eq]
    show 4096 * (i 0).val + 1 * (y 0).val = _
    omega
  | ⟨1, _⟩ =>
    show k0_off2 i 1 + 1 * (y 1).val = (y 1).val
    rw [k0_off2_eq]
    show 0 + 1 * (y 1).val = _
    omega

/-! ## After each point -/

variable (m : (ℓ : Loc nD τ sig) → Buf (Elt F) ℓ)

/-- The expert whose run of row blocks point `n` belongs to. -/
def expertAt (n : ℕ) (h : n < cfg0.N) : Fin 8 := ⟨n / 8, by have : cfg0.N = 64 := N_0; omega⟩

/-- The first grid coordinate of point `t` is `t / 8` (decided over the 64 points). -/
theorem coord0 : ∀ t : Fin cfg0.N, (grid0.coords t 0).val = t.val / 8 :=
  (by decide +kernel : ∀ t : Fin grid0.N, (grid0.coords t 0).val = t.val / 8)

/-- What is held after point `n`: in the output block the payload of the point's token block with its expert's slabs
    (of the weight arrays as the region finds them), and in the scratch buffers those slabs. -/
def held (c : Dev nD) (n : ℕ) (h : n < cfg0.N) :
    Vec F S256x1024 .f32 × Vec F S1024x4096 .bf16 × Vec F S1024x4096 .bf16 × Vec F S4096x1024 .bf16 :=
  (k0_pay1 (iblk m c 0 ⟨n, h⟩) (rowsUp (V m c main_v1) (expertAt n h)) (rowsUp (V m c main_v2) (expertAt n h))
      (rowsDown (V m c main_v3) (expertAt n h)),
    rowsUp (V m c main_v1) (expertAt n h), rowsUp (V m c main_v2) (expertAt n h), rowsDown (V m c main_v3) (expertAt n h))

/-- A point that opens a run leaves its expert's slabs and their payload. -/
theorem at_opening (c : Dev nD) (n : ℕ) (h : n < cfg0.N) (h0 : n % 8 = 0) : outsAt0 m c n h = held m c n h := by
  have he : (grid0.coords (⟨n, h⟩ : Fin cfg0.N) 0).val = (expertAt n h).val := coord0 ⟨n, h⟩
  rw [outsAt0_A m c ⟨n, h⟩ h0, out_A, scratch_A_0, scratch_A_1, scratch_A_2,
    slabUp1_eq c (grid0.coords (⟨n, h⟩ : Fin cfg0.N)) ((hcond0_0 (⟨n, h⟩ : Fin cfg0.N)).mpr h0) (V m c main_v1) (expertAt n h) he,
    slabUp2_eq c (grid0.coords (⟨n, h⟩ : Fin cfg0.N)) ((hcond0_0 (⟨n, h⟩ : Fin cfg0.N)).mpr h0) (V m c main_v2) (expertAt n h) he,
    slabDown_eq c (grid0.coords (⟨n, h⟩ : Fin cfg0.N)) ((hcond0_0 (⟨n, h⟩ : Fin cfg0.N)).mpr h0) (V m c main_v3) (expertAt n h) he]
  rfl

/-- A later point of a run keeps the slabs the point before held, and leaves their payload. -/
theorem at_later (c : Dev nD) (n : ℕ) (h : n + 1 < cfg0.N) (h0 : ¬(n + 1) % 8 = 0)
    (ih : outsAt0 m c n (Nat.lt_of_succ_lt h) = held m c n (Nat.lt_of_succ_lt h)) :
    outsAt0 m c (n + 1) h = held m c (n + 1) h := by
  have hexp : expertAt (n + 1) h = expertAt n (Nat.lt_of_succ_lt h) := Fin.ext (by show (n + 1) / 8 = n / 8; omega)
  rw [outsAt0_B m c ⟨n + 1, h⟩ h0, out_B]
  unfold sout0_B_0 sout0_B_1 sout0_B_2
  show (k0_pay1 (iblk m c 0 ⟨n + 1, h⟩) (outsAt0 m c n (Nat.lt_of_succ_lt h)).2.1 (outsAt0 m c n (Nat.lt_of_succ_lt h)).2.2.1
          (outsAt0 m c n (Nat.lt_of_succ_lt h)).2.2.2,
        (outsAt0 m c n (Nat.lt_of_succ_lt h)).2.1, (outsAt0 m c n (Nat.lt_of_succ_lt h)).2.2.1,
        (outsAt0 m c n (Nat.lt_of_succ_lt h)).2.2.2) = held m c (n + 1) h
  rw [ih]
  unfold held
  rw [hexp]

/-- AFTER EVERY POINT: by induction on the point. -/
theorem outsAt_eq (c : Dev nD) : ∀ (n : ℕ) (h : n < cfg0.N), outsAt0 m c n h = held m c n h
  | 0, h => at_opening m c 0 h rfl
  | n + 1, h => by
    by_cases h0 : (n + 1) % 8 = 0
    · exact at_opening m c (n + 1) h h0
    · exact at_later m c n h h0 (outsAt_eq c n (Nat.lt_of_succ_lt h))

end Cert.KernelIdeal.Carried

end
-- ==== Proof.Payload.lean ====
/-
  The body's payload, entry by entry, over the extended reals.

  For a token block `xb` (256 rows, 1024 features) and slabs `s₁ s₂` (1024 × 4096) and `s₃` (4096 × 1024), the stored
  block at row `p`, column `d` is

      ∑_f ((u₁ p f · σ(u₁ p f)) · u₂ p f) · s₃[f, d]     with   u_j p f = ∑_k xb[p, k] · s_j[k, f].

  Each of the three matrix products accumulates into a zero block, so it is its plain sum of products; the change of
  float format before the last product changes nothing over the extended reals; the products and the logistic act
  entry by entry.
-/
import proofs.«112839_j84533546320328_1_alg».proof.Proof.Gen.KernelIdeal.Skeleton
import proofs.«112839_j84533546320328_1_alg».proof.Proof.Spec
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-! ## The up-projections' product: 256 × 1024 by 1024 × 4096 -/

theorem up_lhs0 (j : S256x4096.Idx) (q : dot_S256x1024_S1024x4096_S256x4096_1_0_0_1_n_n.contr.Idx) :
    (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem up_lhs1 (j : S256x4096.Idx) (q : dot_S256x1024_S1024x4096_S256x4096_1_0_0_1_n_n.contr.Idx) :
    (dot_S256x1024_S1024x4096_S256x4096_1_0_0_1_n_n.lhsIdx j q 1).val = (q ⟨0, by decide⟩).val :=
  dot_S256x1024_S1024x4096_S256x4096_1_0_0_1_n_n.lhsIdx_val_of_single rfl j q
theorem up_rhs0 (j : S256x4096.Idx) (q : dot_S256x1024_S1024x4096_S256x4096_1_0_0_1_n_n.contr.Idx) :
    (dot_S256x1024_S1024x4096_S256x4096_1_0_0_1_n_n.rhsIdx j q 0).val = (q ⟨0, by decide⟩).val :=
  dot_S256x1024_S1024x4096_S256x4096_1_0_0_1_n_n.rhsIdx_val_of_single rfl j q
theorem up_rhs1 (j : S256x4096.Idx) (q : dot_S256x1024_S1024x4096_S256x4096_1_0_0_1_n_n.contr.Idx) :
    (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The product of a token block with an up-projection slab, into a zero block, at row `p` and hidden column `f`. -/
theorem up_product_apply (a : FVec Ideal S256x1024 .bf16) (b : FVec Ideal S1024x4096 .bf16) (p : Fin 256) (f : Fin 4096) :
    matmul (φ₁ := .bf16) (φ₂ := .bf16) dot_S256x1024_S1024x4096_S256x4096_1_0_0_1_n_n none a b (constant (F := Ideal) S256x4096 .f32 0x00000000#32) (ix2 p f)
      = ∑ k : Fin 1024, a (ix2 p k) * b (ix2 k f) := by
  show FloatOps.matmul (φ₁ := .bf16) (φ₂ := .bf16) dot_S256x1024_S1024x4096_S256x4096_1_0_0_1_n_n none a b (constant (F := Ideal) S256x4096 .f32 0x00000000#32) (ix2 p f) = _
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p f) ((contrEquiv1 dot_S256x1024_S1024x4096_S256x4096_1_0_0_1_n_n 1024 rfl rfl).symm k) = ix2 p k := funext fun x => Fin.ext (by
    match x with
    | ⟨0, _⟩ => exact up_lhs0 _ _
    | ⟨1, _⟩ => exact (up_lhs1 _ _).trans hk)
  have er : dot_S256x1024_S1024x4096_S256x4096_1_0_0_1_n_n.rhsIdx (ix2 p f) ((contrEquiv1 dot_S256x1024_S1024x4096_S256x4096_1_0_0_1_n_n 1024 rfl rfl).symm k) = ix2 k f := funext fun x => Fin.ext (by
    match x with
    | ⟨0, _⟩ => exact (up_rhs0 _ _).trans hk
    | ⟨1, _⟩ => exact up_rhs1 _ _)
  rw [el, er]

/-! ## The down-projection's product: 256 × 4096 by 4096 × 1024 -/

theorem down_lhs0 (j : S256x1024.Idx) (q : dot_S256x4096_S4096x1024_S256x1024_1_0_0_1_n_n.contr.Idx) :
    (dot_S256x4096_S4096x1024_S256x1024_1_0_0_1_n_n.lhsIdx j q 0).val = (j 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem down_lhs1 (j : S256x1024.Idx) (q : dot_S256x4096_S4096x1024_S256x1024_1_0_0_1_n_n.contr.Idx) :
    (dot_S256x4096_S4096x1024_S256x1024_1_0_0_1_n_n.lhsIdx j q 1).val = (q ⟨0, by decide⟩).val :=
  dot_S256x4096_S4096x1024_S256x1024_1_0_0_1_n_n.lhsIdx_val_of_single rfl j q
theorem down_rhs0 (j : S256x1024.Idx) (q : dot_S256x4096_S4096x1024_S256x1024_1_0_0_1_n_n.contr.Idx) :
    (dot_S256x4096_S4096x1024_S256x1024_1_0_0_1_n_n.rhsIdx j q 0).val = (q ⟨0, by decide⟩).val :=
  dot_S256x4096_S4096x1024_S256x1024_1_0_0_1_n_n.rhsIdx_val_of_single rfl j q
theorem down_rhs1 (j : S256x1024.Idx) (q : dot_S256x4096_S4096x1024_S256x1024_1_0_0_1_n_n.contr.Idx) :
    (dot_S256x4096_S4096x1024_S256x1024_1_0_0_1_n_n.rhsIdx j q 1).val = (j 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of an activation block with the down-projection slab, into a zero block, at row `p` and column `d`. -/
theorem down_product_apply (a : FVec Ideal S256x4096 .bf16) (b : FVec Ideal S4096x1024 .bf16) (p : Fin 256) (d : Fin 1024) :
    matmul (φ₁ := .bf16) (φ₂ := .bf16) dot_S256x4096_S4096x1024_S256x1024_1_0_0_1_n_n none a b (constant (F := Ideal) S256x1024 .f32 0x00000000#32) (ix2 p d)
      = ∑ f : Fin 4096, a (ix2 p f) * b (ix2 f d) := by
  show FloatOps.matmul (φ₁ := .bf16) (φ₂ := .bf16) dot_S256x4096_S4096x1024_S256x1024_1_0_0_1_n_n none a b (constant (F := Ideal) S256x1024 .f32 0x00000000#32) (ix2 p d) = _
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p d) ((contrEquiv1 dot_S256x4096_S4096x1024_S256x1024_1_0_0_1_n_n 4096 rfl rfl).symm k) = ix2 p k := funext fun x => Fin.ext (by
    match x with
    | ⟨0, _⟩ => exact down_lhs0 _ _
    | ⟨1, _⟩ => exact (down_lhs1 _ _).trans hk)
  have er : dot_S256x4096_S4096x1024_S256x1024_1_0_0_1_n_n.rhsIdx (ix2 p d) ((contrEquiv1 dot_S256x4096_S4096x1024_S256x1024_1_0_0_1_n_n 4096 rfl rfl).symm k) = ix2 k d := funext fun x => Fin.ext (by
    match x with
    | ⟨0, _⟩ => exact (down_rhs0 _ _).trans hk
    | ⟨1, _⟩ => exact down_rhs1 _ _)
  rw [el, er]

/-! ## The payload -/

/-- An up-projection of row `p` of a token block through a slab, at hidden column `f`. -/
def blockUp (xb : Vec Ideal S256x1024 .bf16) (s : Vec Ideal S1024x4096 .bf16) (p : Fin 256) (f : Fin 4096) : EReal :=
  ∑ k : Fin 1024, xb (ix2 p k) * s (ix2 k f)

/-- The gated activation of row `p` of a token block, at hidden column `f`. -/
def blockAct (xb : Vec Ideal S256x1024 .bf16) (s₁ s₂ : Vec Ideal S1024x4096 .bf16) (p : Fin 256) (f : Fin 4096) : EReal :=
  (blockUp xb s₁ p f * Ideal.logistic (blockUp xb s₁ p f)) * blockUp xb s₂ p f

/-- The block the body computes, before its last product: the gated activation, entry by entry. -/
theorem act_apply (xb : Vec Ideal S256x1024 .bf16) (s₁ s₂ : Vec Ideal S1024x4096 .bf16) (p : Fin 256) (f : Fin 4096) :
    (truncf (F := Ideal) .bf16
        (mulf (mulf (matmul (φ₁ := .bf16) (φ₂ := .bf16) dot_S256x1024_S1024x4096_S256x4096_1_0_0_1_n_n none (shapeCast S256x1024 xb shapeCasts_S256x1024_S256x1024 : FVec Ideal S256x1024 .bf16) s₁ (constant (F := Ideal) S256x4096 .f32 0x00000000#32))
                    (logistic (matmul (φ₁ := .bf16) (φ₂ := .bf16) dot_S256x1024_S1024x4096_S256x4096_1_0_0_1_n_n none (shapeCast S256x1024 xb shapeCasts_S256x1024_S256x1024 : FVec Ideal S256x1024 .bf16) s₁ (constant (F := Ideal) S256x4096 .f32 0x00000000#32))))
              (matmul (φ₁ := .bf16) (φ₂ := .bf16) dot_S256x1024_S1024x4096_S256x4096_1_0_0_1_n_n none (shapeCast S256x1024 xb shapeCasts_S256x1024_S256x1024 : FVec Ideal S256x1024 .bf16) s₂ (constant (F := Ideal) S256x4096 .f32 0x00000000#32)))
        bitsLt_bf16_f32 : FVec Ideal S256x4096 .bf16) (ix2 p f)
      = blockAct xb s₁ s₂ p f := by
  rw [shapeCast_self]
  show (matmul (φ₁ := .bf16) (φ₂ := .bf16) dot_S256x1024_S1024x4096_S256x4096_1_0_0_1_n_n none xb s₁ (constant (F := Ideal) S256x4096 .f32 0x00000000#32) (ix2 p f)
        * Ideal.logistic (matmul (φ₁ := .bf16) (φ₂ := .bf16) dot_S256x1024_S1024x4096_S256x4096_1_0_0_1_n_n none xb s₁ (constant (F := Ideal) S256x4096 .f32 0x00000000#32) (ix2 p f)))
      * matmul (φ₁ := .bf16) (φ₂ := .bf16) dot_S256x1024_S1024x4096_S256x4096_1_0_0_1_n_n none xb s₂ (constant (F := Ideal) S256x4096 .f32 0x00000000#32) (ix2 p f) = _
  rw [up_product_apply, up_product_apply]
  rfl

/-- THE PAYLOAD at row `p`, column `d`: the gated activations of the row through the down-projection slab. -/
theorem payload_apply (xb : Vec Ideal S256x1024 .bf16) (s₁ s₂ : Vec Ideal S1024x4096 .bf16) (s₃ : Vec Ideal S4096x1024 .bf16)
    (p : Fin 256) (d : Fin 1024) :
    k0_pay1 (F := Ideal) xb s₁ s₂ s₃ (ix2 p d) = ∑ f : Fin 4096, blockAct xb s₁ s₂ p f * s₃ (ix2 f d) := by
  refine (down_product_apply _ s₃ p d).trans ?_
  refine Finset.sum_congr rfl fun f _ => ?_
  exact congrArg (· * s₃ (ix2 f d)) (act_apply xb s₁ s₂ p f)

end Cert.KernelIdeal.BlockValue

end
-- ==== Proof.BlockIsLayer.lean ====
/-
  One row block of the kernel is the layer on that block's rows.

  Take token row `r` of the whole array and let `xb` be a token block whose row `p` is row `r` of the array. With the
  scratch buffers at the slabs of `r`'s expert `e = r / 2048`, the payload at `[p, d]` is

      ∑_f ((u₁ · σ(u₁)) · u₂) · w₃[e·4096 + f, d],   u_j = ∑_k x[r, k] · w_j[e·1024 + k, f]

  which is the layer at `[r, d]`, sum for sum and term for term: the slab's row `k` IS row `e·1024 + k` of the matrix.
-/
import proofs.«112839_j84533546320328_1_alg».proof.Proof.Payload
import proofs.«112839_j84533546320328_1_alg».proof.Proof.Spec

noncomputable section

namespace Cert.KernelIdeal.BlockValue

open Cert.KernelIdeal Cert.KernelIdeal.Gen Cert.Swiglu Idealize.ShloMosaic Idealize.ShloMosaic.ValueIdx
open scoped BigOperators

variable (X : Tok.Idx → EReal) (W₁ W₂ : Up.Idx → EReal) (W₃ : Down.Idx → EReal)

/-- A block's up-projection through its expert's slab is the layer's up-projection of the row. -/
theorem blockUp_eq (W : Up.Idx → EReal) (xb : Vec Ideal S256x1024 .bf16) (r : Fin 16384) (p : Fin 256) (f : Fin 4096)
    (hxb : ∀ k : Fin 1024, xb (ix2 p k) = X (ix2 r k)) :
    blockUp xb (rowsUp W (expertOf r)) p f = up X W r f := by
  unfold blockUp up
  refine Finset.sum_congr rfl fun k _ => ?_
  rw [hxb k]
  rfl

/-- THE BLOCK IS THE LAYER on its rows. -/
theorem block_is_layer (xb : Vec Ideal S256x1024 .bf16) (r : Fin 16384) (p : Fin 256)
    (hxb : ∀ k : Fin 1024, xb (ix2 p k) = X (ix2 r k)) (d : Fin 1024) :
    k0_pay1 (F := Ideal) xb (rowsUp W₁ (expertOf r)) (rowsUp W₂ (expertOf r)) (rowsDown W₃ (expertOf r)) (ix2 p d)
      = layer X W₁ W₂ W₃ (ix2 r d) := by
  rw [payload_apply]
  unfold layer
  refine Finset.sum_congr rfl fun f _ => ?_
  show blockAct xb (rowsUp W₁ (expertOf r)) (rowsUp W₂ (expertOf r)) p f * W₃ (ix2 (downRow (expertOf r) f) d)
    = act X W₁ W₂ r f * W₃ (ix2 (downRow (expertOf r) f) d)
  unfold blockAct act
  rw [blockUp_eq X W₁ xb r p f hxb, blockUp_eq X W₂ xb r p f hxb]

/-- The same with the block's position spelled in numbers: block `n` of 64 holds rows `256·n … 256·n + 255`, its expert
    is `n / 8`, and entry `j` of the block is entry `i` of the array when `i = (256·n + j₀, j₁)`. -/
theorem point_block (xb : Vec Ideal S256x1024 .bf16) (n : ℕ) (hn : n < 64)
    (hxb : ∀ (p : Fin 256) (k : Fin 1024) (r : Fin 16384), r.val = n * 256 + p.val → xb (ix2 p k) = X (ix2 r k))
    (e : Fin 8) (he : e.val = n / 8) (j : S256x1024.Idx) (i : Tok.Idx)
    (hi0 : (i 0).val = n * 256 + (j 0).val) (hi1 : (i 1).val = (j 1).val) :
    k0_pay1 (F := Ideal) xb (rowsUp W₁ e) (rowsUp W₂ e) (rowsDown W₃ e) j = layer X W₁ W₂ W₃ i := by
  obtain ⟨p, d, rfl⟩ : ∃ (p : Fin 256) (d : Fin 1024), j = ix2 p d := ⟨j 0, j 1, eq_ix2 j⟩
  have hp : p.val < 256 := p.isLt
  obtain ⟨r, d', rfl⟩ : ∃ (r : Fin 16384) (d' : Fin 1024), i = ix2 r d' := ⟨i 0, i 1, eq_ix2 i⟩
  have hr : r.val = n * 256 + p.val := hi0
  obtain rfl : d = d' := (Fin.ext hi1).symm
  obtain rfl : e = expertOf r := Fin.ext (by show e.val = r.val / 2048; omega)
  exact block_is_layer X W₁ W₂ W₃ xb r p (fun k => hxb p k r hr) d

end Cert.KernelIdeal.BlockValue

end
-- ==== Proof.WholeArray.lean ====
/-
  The kernel's result array is the layer of the argument arrays.

  Row block `t` of the result (rows `256·t … 256·t + 255`) is written back by grid point `t` and by no other, and the 64
  blocks tile the array. What point `t` writes back is the payload of rows `256·t …` of the tokens with the slabs of
  expert `t / 8 = (256·t + p) / 2048`, which is the layer on those rows. The arrays the region finds are the
  arguments after a change of float format, the identity over the extended reals.
-/
import proofs.«112839_j84533546320328_1_alg».proof.Proof.Gen.KernelIdeal.Value
import proofs.«112839_j84533546320328_1_alg».proof.Proof.Carried
import proofs.«112839_j84533546320328_1_alg».proof.Proof.BlockIsLayer
import Idealize.ShloMosaic.Lib.Pipeline.Value
import Idealize.ShloMosaic.Lib.StableHlo.Run

set_option maxRecDepth 16384

noncomputable section

namespace Cert.KernelIdeal.WholeArray

open Cert.KernelIdeal Cert.KernelIdeal.Gen Cert.KernelIdeal.Carried Cert.KernelIdeal.BlockValue Cert.Swiglu
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The tokens as the region finds them are the argument: the host's change of format is the identity here. -/
theorem entry_tokens (c : Dev nD) : (V m c main_v0 : S16384x1024.Idx → EReal) = m ((c : Thread nD τ).loc main_arg0) := by
  dsimp only [Gen.V, Gen.hostOps0]; after_results; rfl
/-- Likewise the first up-projection matrix, -/
theorem entry_up1 (c : Dev nD) : (V m c main_v1 : S8192x4096.Idx → EReal) = m ((c : Thread nD τ).loc main_arg1) := by
  dsimp only [Gen.V, Gen.hostOps0]; after_results; rfl
/-- the second, -/
theorem entry_up2 (c : Dev nD) : (V m c main_v2 : S8192x4096.Idx → EReal) = m ((c : Thread nD τ).loc main_arg2) := by
  dsimp only [Gen.V, Gen.hostOps0]; after_results; rfl
/-- and the down-projection matrix. -/
theorem entry_down (c : Dev nD) : (V m c main_v3 : S32768x1024.Idx → EReal) = m ((c : Thread nD τ).loc main_arg3) := by
  dsimp only [Gen.V, Gen.hostOps0]; after_results; rfl

/-- The layer of the arrays as the region finds them. -/
abbrev regionLayer (c : Dev nD) : S16384x1024.Idx → EReal :=
  layer (V m c main_v0) (V m c main_v1) (V m c main_v2) (V m c main_v3)

/-! ## One point's block -/

/-- The index maps, decided over the grid: at point `t` both windows are at row block `t`, column block 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the token block at point `t` is row `256·t + p` of the tokens. -/
theorem token_block (c : Dev nD) (t : Fin cfg0.N) (p : Fin 256) (k : Fin 1024) (r : Fin 16384)
    (hr : r.val = t.val * 256 + p.val) : iblk m c 0 t (ix2 p k) = V m c main_v0 (ix2 r k) := by
  obtain ⟨e0, e1, -, -⟩ := index_facts t
  unfold iblk
  rw [View.read_apply]
  show V m c main_v0 _ = V m c main_v0 _
  congr 1
  funext a
  apply Fin.ext
  match a with
  | ⟨0, _⟩ => show win0_0.index t (0 : Fin 2) * 256 + 1 * p.val = r.val; omega
  | ⟨1, _⟩ => show win0_0.index t (1 : Fin 2) * 1024 + 1 * k.val = k.val; omega

/-- WHAT POINT `t` WRITES BACK is block `t` of the layer. -/
theorem flushed_eq (c : Dev nD) (t : Fin cfg0.N) :
    (dats m 0 c).flushed 1 t = ((cfg0.win 1).blk t).view.read (Elt Ideal) (regionLayer m c) := by
  have hN : t.val < 64 := lt_of_lt_of_eq t.isLt (show cfg0.N = 64 from N_0)
  obtain ⟨-, -, e2, e3⟩ := index_facts t
  rw [Cert.KernelIdeal.Value.flushed1, outsAt_eq]
  funext j
  show k0_pay1 (F := Ideal) (iblk m c 0 t) (rowsUp (V m c main_v1) (expertAt t.val t.isLt))
      (rowsUp (V m c main_v2) (expertAt t.val t.isLt)) (rowsDown (V m c main_v3) (expertAt t.val t.isLt)) j
    = regionLayer m c (((cfg0.win 1).blk t).view.emb j)
  refine point_block (V m c main_v0) (V m c main_v1) (V m c main_v2) (V m c main_v3) (iblk m c 0 t) t.val hN
    (fun p k r hr => token_block m c t p k r hr) (expertAt t.val t.isLt) rfl j _ ?_ ?_
  · show win0_1.index t (0 : Fin 2) * 256 + 1 * (j 0).val = t.val * 256 + (j 0).val
    omega
  · show win0_1.index t (1 : Fin 2) * 1024 + 1 * (j 1).val = (j 1).val
    omega

/-! ## The blocks tile the array -/

/-- An index of the array is in point `t`'s block iff each coordinate is in the block's range on its axis. -/
theorem mem_blk (t : Fin cfg0.N) (i : S16384x1024.Idx) :
    i ∈ ((cfg0.win 1).blk t).view.set ↔ ∀ a : Fin 2, win0_1.index t a * S256x1024.size a ≤ (i a).val
      ∧ (i a).val < win0_1.index t a * S256x1024.size a + S256x1024.size a := by
  show i ∈ ((View.whole main_v4).slice (win0_1.rect t)).set ↔ _
  rw [View.set_slice_whole, Rect.mem_set_unit]
  exact Iff.rfl

/-- Every index is in the block of the point its row block names. -/
theorem cover (i : S16384x1024.Idx) :
    ∃ t : Fin cfg0.N, (cfg0.win 1).flush t = true ∧ i ∈ ((cfg0.win 1).blk t).view.set := by
  have hi0 : (i 0).val < 16384 := (i 0).isLt
  have hi1 : (i 1).val < 1024 := (i 1).isLt
  have hN : cfg0.N = 64 := N_0
  have hb : (i 0).val / 256 < cfg0.N := by omega
  obtain ⟨-, -, e2, e3⟩ := index_facts ⟨(i 0).val / 256, hb⟩
  have e2' : win0_1.index ⟨(i 0).val / 256, hb⟩ (0 : Fin 2) = (i 0).val / 256 := e2
  refine ⟨⟨(i 0).val / 256, hb⟩, flush0_1 _, ?_⟩
  rw [mem_blk]
  intro a
  match a with
  | ⟨0, _⟩ =>
    show win0_1.index ⟨(i 0).val / 256, hb⟩ (0 : Fin 2) * 256 ≤ (i 0).val
      ∧ (i 0).val < win0_1.index ⟨(i 0).val / 256, hb⟩ (0 : Fin 2) * 256 + 256
    omega
  | ⟨1, _⟩ =>
    show win0_1.index ⟨(i 0).val / 256, hb⟩ (1 : Fin 2) * 1024 ≤ (i 1).val
      ∧ (i 1).val < win0_1.index ⟨(i 0).val / 256, hb⟩ (1 : Fin 2) * 1024 + 1024
    omega

/-! ## The array and the run -/

/-- THE RESULT ARRAY after the run is the layer of the arguments. -/
theorem final (c : Dev nD) : (dats m 0 c).arrAt 1 cfg0.N
    = layer (m ((c : Thread nD τ).loc main_arg0)) (m ((c : Thread nD τ).loc main_arg1)) (m ((c : Thread nD τ).loc main_arg2)) (m ((c : Thread nD τ).loc main_arg3)) :=
  ((dats m 0 c).arrAt_eq_of_cover 1 (regionLayer m c) (fun t _ => flushed_eq m c t) cover).trans (by
    unfold regionLayer
    rw [entry_tokens, entry_up1, entry_up2, entry_down])

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.WholeArray

end
-- ==== Proof.lean ====
/-
  A gated two-projection feed-forward layer over eight experts: the kernel against its reference.

  Both programs take 16384 token rows of 1024 features (2048 consecutive rows per expert), two up-projection matrices
  of 8 × 1024 rows by 4096 columns and a down-projection matrix of 8 × 4096 rows by 1024 columns, and return, for
  row `r` of expert `e = r / 2048` and column `d`,

      ∑_f ((u₁ · σ(u₁)) · u₂) · w₃[e·4096 + f, d],   u_j = ∑_k x[r, k] · w_j[e·1024 + k, f],   σ t = 1 / (1 + e⁻ᵗ)

  (Spec.lean's `layer`). The reference does it by reshaping to a batch of eight and three batched products
  (RefIsSpec.lean). The kernel walks a grid of 8 × 8 points, point `(e, g)` computing rows `256·(8e + g) …` of the
  result; at `g = 0` it copies expert `e`'s three weight slabs into scratch buffers, which the next seven points reuse.
  So after every point the scratch buffers hold the slabs of the point's expert (Pieces.lean, Carried.lean: an
  induction over the points), each point's block is the layer on its rows (Payload.lean, BlockIsLayer.lean), and the
  64 blocks tile the result array (WholeArray.lean).

  Over the extended reals the two agree with no condition on the inputs: the kernel's logistic IS `1 / (1 + e⁻ᵗ)`
  with the conventions at the infinities, the changes of float format are the identity, a product into a zero block
  is its sum of products, and the two programs multiply the same factors in the same order and differ only in how
  the sums are cut into blocks. The idealizing pass rewrote nothing, so that conjunct is trivial; the kernel's two
  frames are the generated ones, the reference's is its run with the result dropped.
-/
import proofs.«112839_j84533546320328_1_alg».proof.Defs
import proofs.«112839_j84533546320328_1_alg».proof.Proof.Gen.Kernel
import proofs.«112839_j84533546320328_1_alg».proof.Proof.Gen.Kernel.Skeleton
import proofs.«112839_j84533546320328_1_alg».proof.Proof.Gen.Kernel.Launch
import proofs.«112839_j84533546320328_1_alg».proof.Proof.Gen.Kernel.Points
import proofs.«112839_j84533546320328_1_alg».proof.Proof.Gen.Kernel.Frame
import proofs.«112839_j84533546320328_1_alg».proof.Proof.Gen.KernelIdeal
import proofs.«112839_j84533546320328_1_alg».proof.Proof.Gen.KernelIdeal.Skeleton
import proofs.«112839_j84533546320328_1_alg».proof.Proof.Gen.KernelIdeal.Launch
import proofs.«112839_j84533546320328_1_alg».proof.Proof.Gen.KernelIdeal.Points
import proofs.«112839_j84533546320328_1_alg».proof.Proof.Gen.KernelIdeal.Frame
import proofs.«112839_j84533546320328_1_alg».proof.Proof.Gen.ReferenceIdeal
import proofs.«112839_j84533546320328_1_alg».proof.Proof.Gen.KernelIdeal.Value
import proofs.«112839_j84533546320328_1_alg».proof.Proof.Gen.ReferenceIdeal.Run
import proofs.«112839_j84533546320328_1_alg».proof.Proof.Gen.ReferenceIdeal.Read
import proofs.«112839_j84533546320328_1_alg».proof.Proof.Gen.Pre_finite_inputs
import proofs.«112839_j84533546320328_1_alg».proof.Proof.RefIsSpec
import proofs.«112839_j84533546320328_1_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Over the extended reals the kernel's result array ends at the layer of its arguments and the reference's at the
    layer of its own, and the arguments agree. -/
theorem algebraic : Cert.algebraic_KernelIdeal_ReferenceIdeal := by
  intro m ρ m' ρ' _ hagree
  refine ⟨fun c => Cert.Swiglu.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
